-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x640000 32) (main_arg2 : FVec F S640000x128 .f32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S128x256 : Shape := ⟨2, ![128, 256]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 21
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S50000x128, .f32⟩
  | .hbm, ⟨11, _⟩ => ⟨S640000x1, .i32⟩
  | .hbm, ⟨12, _⟩ => ⟨S50000x128, .f32⟩
  | .hbm, ⟨13, _⟩ => ⟨S128x256, .f32⟩
  | .hbm, ⟨14, _⟩ => ⟨S128x256, .bf16⟩
  | .hbm, ⟨15, _⟩ => ⟨S128x256, .f32⟩
  | .hbm, ⟨16, _⟩ => ⟨S128x256, .bf16⟩
  | .hbm, ⟨17, _⟩ => ⟨S256x128, .bf16⟩
  | .hbm, ⟨18, _⟩ => ⟨S1x256, .f32⟩
  | .hbm, ⟨19, _⟩ => ⟨S1x128, .f32⟩
  | .hbm, ⟨20, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x640000_S1x640000_0_0 : S2x640000.Slices ![0, 0] S1x640000
  shapeCasts_S1x640000_S640000 : S1x640000.ShapeCasts S640000
  bcast_S_S50000x128 : S_.BroadcastsInDim S50000x128 (![] : Fin 0 → Fin S50000x128.rank)
  bcast_S640000_S640000x1_0 : S640000.BroadcastsInDim S640000x1 (![0] : Fin 1 → Fin S640000x1.rank)
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S640000x1_S640000x128_1_0_0_1_wf : ScatterDims.WF S50000x128 S640000x1 S640000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S50000x128, .f32⟩
  | .hbm, ⟨11, _⟩ => ⟨S640000x1, .i32⟩
  | .hbm, ⟨12, _⟩ => ⟨S50000x128, .f32⟩
  | .hbm, ⟨13, _⟩ => ⟨S50000x256, .f32⟩
  | .hbm, ⟨14, _⟩ => ⟨S50000x256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S50000x128 : S_.BroadcastsInDim S50000x128 (![] : Fin 0 → Fin S50000x128.rank)
  bcast_S640000_S640000x1_0 : S640000.BroadcastsInDim S640000x1 (![0] : Fin 1 → Fin S640000x1.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S640000x1_S640000x128_1_0_0_1_wf : ScatterDims.WF S50000x128 S640000x1 S640000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Spec.lean ====
/-
  The two-layer perceptron over node features joined with aggregated edge features, as ONE function of its
  argument arrays over the extended reals, entry by entry.

  With nf, agg : [50000, 128], W1 : [256, 256], b1 : [256], W2 : [256, 128], b2 : [128],

    hidden r j = (sum_{k < 128} nf[r, k] * W1[k, j]  +  sum_{k < 128} agg[r, k] * W1[128 + k, j]) + b1[j]
    out   r c = (sum_{j < 256} hidden r j * W2[j, c]) + b2[c].

  The first layer is written in its SPLIT form: the top 128 rows of W1 meet the node features and the bottom 128
  rows meet the aggregate. The JOINED form, in which one row of 256 entries (the node features followed by the
  aggregate) meets all of W1, is the same number: a sum over 256 = 128 + 128 indices is the sum over the first
  128 plus the sum over the last 128. Only that addition is a commutative monoid is used, so the identity holds
  for every extended real, infinite ones included.
-/
import Idealize.ShloMosaic.Lib.ValueIdx
import Idealize.ShloMosaic.PureOps.Ideal

noncomputable section

namespace Cert.Mlp

open Idealize.ShloMosaic Idealize.ShloMosaic.ValueIdx

/-- Row `k` of the top half of a 256-row matrix. -/
def lo (k : Fin 128) : Fin 256 := ⟨k.val, by have := k.isLt; omega⟩
/-- Row `k` of the bottom half: row `128 + k`. -/
def hi (k : Fin 128) : Fin 256 := ⟨128 + k.val, by have := k.isLt; omega⟩

theorem lo_val (k : Fin 128) : (lo k).val = k.val := rfl
theorem hi_val (k : Fin 128) : (hi k).val = 128 + k.val := rfl

/-- A sum over 256 indices is the sum over the first 128 plus the sum over the last 128. -/
theorem sum_halves {M : Type*} [AddCommMonoid M] (f : Fin 256 → M) :
    ∑ k : Fin 256, f k = ∑ k : Fin 128, f (lo k) + ∑ k : Fin 128, f (hi k) := by
  have h : ∑ k : Fin (128 + 128), f k
      = ∑ k : Fin 128, f (Fin.castAdd 128 k) + ∑ k : Fin 128, f (Fin.natAdd 128 k) := Fin.sum_univ_add _
  exact h

variable (nf agg : (⟨2, ![50000, 128]⟩ : Shape).Idx → EReal) (W1 : (⟨2, ![256, 256]⟩ : Shape).Idx → EReal)
  (b1 : (⟨1, ![256]⟩ : Shape).Idx → EReal) (W2 : (⟨2, ![256, 128]⟩ : Shape).Idx → EReal)
  (b2 : (⟨1, ![128]⟩ : Shape).Idx → EReal)

/-- The hidden activation of node `r`, unit `j`, in split form. -/
def hidden (r : Fin 50000) (j : Fin 256) : EReal :=
  (∑ k : Fin 128, nf (ix2 r k) * W1 (ix2 (lo k) j) + ∑ k : Fin 128, agg (ix2 r k) * W1 (ix2 (hi k) j)) + b1 (ix1 j)

/-- The output of node `r`, unit `c`. -/
def outAt (r : Fin 50000) (c : Fin 128) : EReal :=
  (∑ j : Fin 256, hidden nf agg W1 b1 r j * W2 (ix2 j c)) + b2 (ix1 c)

/-- The output array. -/
def out : (⟨2, ![50000, 128]⟩ : Shape).Idx → EReal := fun i => outAt nf agg W1 b1 W2 b2 (i 0) (i 1)

theorem out_apply (r : Fin 50000) (c : Fin 128) : out nf agg W1 b1 W2 b2 (ix2 r c) = outAt nf agg W1 b1 W2 b2 r c := rfl

/-- The joined form of the first layer: a row `cat` of 256 entries whose first 128 are the node features of `r`
    and whose last 128 are its aggregate, met with all of W1, gives the hidden activation. -/
theorem hidden_of_joined (cat : (⟨2, ![50000, 256]⟩ : Shape).Idx → EReal) (r : Fin 50000)
    (hlo : ∀ k : Fin 128, cat (ix2 r (lo k)) = nf (ix2 r k)) (hhi : ∀ k : Fin 128, cat (ix2 r (hi k)) = agg (ix2 r k))
    (j : Fin 256) :
    (∑ k : Fin 256, cat (ix2 r k) * W1 (ix2 k j)) + b1 (ix1 j) = hidden nf agg W1 b1 r j := by
  unfold hidden
  rw [sum_halves]
  simp only [hlo, hhi]

end Cert.Mlp

end
-- ==== Proof.Payload.lean ====
/-
  What the body stores, read at one entry. The body loads a 5000-row block of node features (x0) and of the
  aggregate (x1), the two halves of the first weight matrix (x2, x3), the first bias as a row (x4), the second
  weight matrix (x5) and the second bias as a row (x6); it forms

      h = x0 · x2 + x1 · x3 + (x4 down every row),        o = h · x5 + (x6 down every row),

  each product accumulated into a zero splat, and stores o. Over the extended reals a change of float format is
  the identity, so entry (p, c) of o is

      (sum_j ((sum_k x0[p,k] x2[k,j] + sum_k x1[p,k] x3[k,j]) + x4[0,j]) * x5[j,c]) + x6[0,c].
-/
import proofs.«142789_j14499809591359_2_alg».proof.Proof.Gen.KernelIdeal.Skeleton
import proofs.«142789_j14499809591359_2_alg».proof.Proof.LibPlainDot
import proofs.«142789_j14499809591359_2_alg».proof.Proof.Spec
import Idealize.ShloMosaic.Lib.ValueLayout

noncomputable section

namespace Cert.KernelIdeal.Body

open Cert.KernelIdeal Cert.KernelIdeal.Gen Idealize.ShloMosaic Idealize.ShloMosaic.ValueIdx

/-- The first layer at row `p`, unit `j`: two products into zero splats, added, plus the bias row. -/
theorem first_layer (a b : FVec Ideal S5000x128 .bf16) (wa wb : FVec Ideal S128x256 .bf16) (brow : FVec Ideal S1x256 .f32)
    (p : Fin 5000) (j : Fin 256) :
    addf (addf (matmul dot_S5000x128_S128x256_S5000x256_1_0_0_1_n_n none a wa (constant (F := Ideal) S5000x256 .f32 0x00000000#32))
               (matmul dot_S5000x128_S128x256_S5000x256_1_0_0_1_n_n none b wb (constant (F := Ideal) S5000x256 .f32 0x00000000#32)))
         (broadcastTo S5000x256 brow broadcasts_S1x256_S5000x256) (ix2 p j)
      = (∑ k : Fin 128, a (ix2 p k) * wa (ix2 k j) + ∑ k : Fin 128, b (ix2 p k) * wb (ix2 k j)) + brow (ix2 (0 : Fin 1) j) := by
  rw [addf_apply, addf_apply]
  refine congrArg₂ (· + ·) (congrArg₂ (· + ·) ?_ ?_) ?_
  · exact Cert.PlainDot.matmul_zero_apply dot_S5000x128_S128x256_S5000x256_1_0_0_1_n_n rfl none a wa p j
  · exact Cert.PlainDot.matmul_zero_apply dot_S5000x128_S128x256_S5000x256_1_0_0_1_n_n rfl none b wb p j
  · exact broadcastTo_1b_ab_apply brow broadcasts_S1x256_S5000x256 p j

/-- The second layer at row `p`, unit `c`: one product into a zero splat plus the bias row. -/
theorem second_layer (h : FVec Ideal S5000x256 .bf16) (w : FVec Ideal S256x128 .bf16) (brow : FVec Ideal S1x128 .f32)
    (p : Fin 5000) (c : Fin 128) :
    addf (matmul dot_S5000x256_S256x128_S5000x128_1_0_0_1_n_n none h w (constant (F := Ideal) S5000x128 .f32 0x00000000#32))
         (broadcastTo S5000x128 brow broadcasts_S1x128_S5000x128) (ix2 p c)
      = (∑ j : Fin 256, h (ix2 p j) * w (ix2 j c)) + brow (ix2 (0 : Fin 1) c) := by
  rw [addf_apply]
  refine congrArg₂ (· + ·) ?_ ?_
  · exact Cert.PlainDot.matmul_zero_apply dot_S5000x256_S256x128_S5000x128_1_0_0_1_n_n rfl none h w p c
  · exact broadcastTo_1b_ab_apply brow broadcasts_S1x128_S5000x128 p c

/-- The stored value at entry `(p, c)` of the block. -/
theorem payload_apply (x0 x1 : Vec Ideal S5000x128 .f32) (x2 x3 : Vec Ideal S128x256 .bf16) (x4 : Vec Ideal S1x256 .f32)
    (x5 : Vec Ideal S256x128 .bf16) (x6 : Vec Ideal S1x128 .f32) (p : Fin 5000) (c : Fin 128) :
    k0_pay1 (F := Ideal) x0 x1 x2 x3 x4 x5 x6 (ix2 p c)
      = (∑ j : Fin 256, ((∑ k : Fin 128, x0 (ix2 p k) * x2 (ix2 k j) + ∑ k : Fin 128, x1 (ix2 p k) * x3 (ix2 k j))
            + x4 (ix2 (0 : Fin 1) j)) * x5 (ix2 j c)) + x6 (ix2 (0 : Fin 1) c) := by
  unfold k0_pay1
  simp only [shapeCast_self]
  refine (second_layer _ _ _ p c).trans ?_
  refine congrArg (· + x6 (ix2 (0 : Fin 1) c)) (Finset.sum_congr rfl fun j _ => congrArg (· * x5 (ix2 j c)) ?_)
  exact first_layer _ _ _ _ _ p j

/-- When the loaded blocks hold row `r` of the node features and of the aggregate (at the block's row `p`), the two
    halves of the first weight matrix, the biases as rows and the second weight matrix, the stored entry `(p, q)`
    is the perceptron's output for node `r`, unit `q`. -/
theorem block_value (x0 x1 : Vec Ideal S5000x128 .f32) (x2 x3 : Vec Ideal S128x256 .bf16) (x4 : Vec Ideal S1x256 .f32)
    (x5 : Vec Ideal S256x128 .bf16) (x6 : Vec Ideal S1x128 .f32)
    (nf agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal)
    (p : Fin 5000) (q : Fin 128) (r : Fin 50000)
    (h0 : ∀ k : Fin 128, x0 (ix2 p k) = nf (ix2 r k)) (h1 : ∀ k : Fin 128, x1 (ix2 p k) = agg (ix2 r k))
    (h2 : ∀ (k : Fin 128) (j : Fin 256), x2 (ix2 k j) = W1 (ix2 (Cert.Mlp.lo k) j))
    (h3 : ∀ (k : Fin 128) (j : Fin 256), x3 (ix2 k j) = W1 (ix2 (Cert.Mlp.hi k) j))
    (h4 : ∀ j : Fin 256, x4 (ix2 (0 : Fin 1) j) = b1 (ix1 j))
    (h5 : ∀ (j : Fin 256) (c : Fin 128), x5 (ix2 j c) = W2 (ix2 j c))
    (h6 : ∀ c : Fin 128, x6 (ix2 (0 : Fin 1) c) = b2 (ix1 c)) :
    k0_pay1 (F := Ideal) x0 x1 x2 x3 x4 x5 x6 (ix2 p q) = Cert.Mlp.outAt nf agg W1 b1 W2 b2 r q := by
  rw [payload_apply]
  unfold Cert.Mlp.outAt Cert.Mlp.hidden
  simp only [h0, h1, h2, h3, h4, h5, h6]

end Cert.KernelIdeal.Body

end
-- ==== Proof.Staged.lean ====
/-
  What the region finds in the arrays the host prepared for it, read at an entry, over the extended reals
  (where the conversion to a narrower float format is the identity):

    * the array of window 2 is the top 128 rows of W1, the array of window 3 its bottom 128 rows;
    * the array of window 5 is W2;
    * the arrays of windows 4 and 6 are the biases b1 and b2 laid out as one row each.

  The aggregate (window 1) is left as the region finds it: both programs compute it by the same operations, so it
  is carried as one array and never opened.
-/
import proofs.«142789_j14499809591359_2_alg».proof.Proof.Gen.KernelIdeal.Frame
import proofs.«142789_j14499809591359_2_alg».proof.Proof.Spec
import Idealize.ShloMosaic.Lib.ValueLayout
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ)

/-- Window 2's array: the top half of W1. -/
theorem w1_top (c : Dev nD) (k : Fin 128) (j : Fin 256) :
    (V m c main_v6 : S128x256.Idx → EReal) (ix2 k j)
      = (m ((c : Thread nD τ).loc main_arg3) : S256x256.Idx → EReal) (ix2 (Cert.Mlp.lo k) j) := by
  have e : (V m c main_v6 : S128x256.Idx → EReal)
      = (truncf (F := Ideal) .bf16 (extractStridedSlice S128x256 ![0, 0] (m ((c : Thread nD τ).loc main_arg3) : S256x256.Idx → EReal) slices_S256x256_S128x256_0_0) bitsLt_bf16_f32 : S128x256.Idx → EReal) := by
    dsimp only [V, hostOps0]; after_results <;> rfl
  rw [e]
  exact slice2_axis0_apply 0 _ slices_S256x256_S128x256_0_0 k j (Cert.Mlp.lo k) (by rw [Cert.Mlp.lo_val]; omega)

/-- Window 3's array: the bottom half of W1. -/
theorem w1_bottom (c : Dev nD) (k : Fin 128) (j : Fin 256) :
    (V m c main_v8 : S128x256.Idx → EReal) (ix2 k j)
      = (m ((c : Thread nD τ).loc main_arg3) : S256x256.Idx → EReal) (ix2 (Cert.Mlp.hi k) j) := by
  have e : (V m c main_v8 : S128x256.Idx → EReal)
      = (truncf (F := Ideal) .bf16 (extractStridedSlice S128x256 ![128, 0] (m ((c : Thread nD τ).loc main_arg3) : S256x256.Idx → EReal) slices_S256x256_S128x256_128_0) bitsLt_bf16_f32 : S128x256.Idx → EReal) := by
    dsimp only [V, hostOps0]; after_results <;> rfl
  rw [e]
  exact slice2_axis0_apply 128 _ slices_S256x256_S128x256_128_0 k j (Cert.Mlp.hi k) (by rw [Cert.Mlp.hi_val])

/-- Window 5's array: W2. -/
theorem w2 (c : Dev nD) (i : S256x128.Idx) :
    (V m c main_v9 : S256x128.Idx → EReal) i = (m ((c : Thread nD τ).loc main_arg5) : S256x128.Idx → EReal) i := by
  have e : (V m c main_v9 : S256x128.Idx → EReal)
      = (truncf (F := Ideal) .bf16 (m ((c : Thread nD τ).loc main_arg5) : S256x128.Idx → EReal) bitsLt_bf16_f32 : S256x128.Idx → EReal) := by
    dsimp only [V, hostOps0]; after_results <;> rfl
  rw [e]
  rfl

/-- Window 4's array: b1 as one row. -/
theorem b1_row (c : Dev nD) (j : Fin 256) :
    (V m c main_v10 : S1x256.Idx → EReal) (ix2 (0 : Fin 1) j) = (m ((c : Thread nD τ).loc main_arg4) : S256.Idx → EReal) (ix1 j) := by
  have e : (V m c main_v10 : S1x256.Idx → EReal) = shapeCast S1x256 (m ((c : Thread nD τ).loc main_arg4)) shapeCasts_S256_S1x256 := by
    dsimp only [V, hostOps0]; after_results <;> rfl
  rw [e]
  exact shapeCast_a_1a_apply _ shapeCasts_S256_S1x256 0 j

/-- Window 6's array: b2 as one row. -/
theorem b2_row (c : Dev nD) (q : Fin 128) :
    (V m c main_v11 : S1x128.Idx → EReal) (ix2 (0 : Fin 1) q) = (m ((c : Thread nD τ).loc main_arg6) : S128.Idx → EReal) (ix1 q) := by
  have e : (V m c main_v11 : S1x128.Idx → EReal) = shapeCast S1x128 (m ((c : Thread nD τ).loc main_arg6)) shapeCasts_S128_S1x128 := by
    dsimp only [V, hostOps0]; after_results <;> rfl
  rw [e]
  exact shapeCast_a_1a_apply _ shapeCasts_S128_S1x128 0 q

end Cert.KernelIdeal.Staged

end
-- ==== Proof.Blocks.lean ====
/-
  Each input window's block at a grid point, as entries of the array the window reads. The grid has ten points;
  point `t` works on rows `5000 t … 5000 t + 4999`. The node features (window 0) and the aggregate (window 1)
  are cut into those row blocks, so entry `(p, k)` of block `t` is entry `(5000 t + p, k)` of the array. The two
  halves of the first weight matrix, the two bias rows and the second weight matrix (windows 2 to 6) are read
  whole at every point: their block is the array. A block's coordinate in the array is, on each axis, the block
  index times the block's extent plus the coordinate inside the block; the block indices are decided once over
  the ten points.
-/
import proofs.«142789_j14499809591359_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- Window 0 moves down the rows with the grid: block `t` is rows `5000 t … 5000 t + 4999` of the node features. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem block0 (c : Dev nD) (t : Fin cfg0.N) (p : Fin 5000) (k : Fin 128) (r : Fin 50000) (hr : r.val = 5000 * t.val + p.val) :
    (iblk m c 0 t : S5000x128.Idx → EReal) (ix2 p k) = (V m c main_arg0 : S50000x128.Idx → EReal) (ix2 r k) := by
  obtain ⟨e0, e1⟩ := idx0 t
  show (V m c main_arg0 : S50000x128.Idx → EReal) (((cfg0.win 0).blk t).view.emb (ix2 p k)) = _
  refine congrArg (V m c main_arg0 : S50000x128.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1 moves down the rows with the grid: block `t` is rows `5000 t … 5000 t + 4999` of the aggregate. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem block1 (c : Dev nD) (t : Fin cfg0.N) (p : Fin 5000) (k : Fin 128) (r : Fin 50000) (hr : r.val = 5000 * t.val + p.val) :
    (iblk m c 1 t : S5000x128.Idx → EReal) (ix2 p k) = (V m c main_v4 : S50000x128.Idx → EReal) (ix2 r k) := by
  obtain ⟨e0, e1⟩ := idx1 t
  show (V m c main_v4 : S50000x128.Idx → EReal) (((cfg0.win 1).blk t).view.emb (ix2 p k)) = _
  refine congrArg (V m c main_v4 : S50000x128.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2's block is its whole array at every point: the top half of the first weight matrix. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem block2 (c : Dev nD) (t : Fin cfg0.N) (y : S128x256.Idx) :
    (iblk m c 2 t : S128x256.Idx → EReal) y = (V m c main_v6 : S128x256.Idx → EReal) y := by
  obtain ⟨e0, e1⟩ := idx2 t
  show (V m c main_v6 : S128x256.Idx → EReal) (((cfg0.win 2).blk t).view.emb y) = _
  refine congrArg (V m c main_v6 : S128x256.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- Window 3's block is its whole array at every point: the bottom half of the first weight matrix. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem block3 (c : Dev nD) (t : Fin cfg0.N) (y : S128x256.Idx) :
    (iblk m c 3 t : S128x256.Idx → EReal) y = (V m c main_v8 : S128x256.Idx → EReal) y := by
  obtain ⟨e0, e1⟩ := idx3 t
  show (V m c main_v8 : S128x256.Idx → EReal) (((cfg0.win 3).blk t).view.emb y) = _
  refine congrArg (V m c main_v8 : S128x256.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- Window 4's block is its whole array at every point: the first bias as a row. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem block4 (c : Dev nD) (t : Fin cfg0.N) (y : S1x256.Idx) :
    (iblk m c 4 t : S1x256.Idx → EReal) y = (V m c main_v10 : S1x256.Idx → EReal) y := by
  obtain ⟨e0, e1⟩ := idx4 t
  show (V m c main_v10 : S1x256.Idx → EReal) (((cfg0.win 4).blk t).view.emb y) = _
  refine congrArg (V m c main_v10 : S1x256.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Window 5's block is its whole array at every point: the second weight matrix. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem block5 (c : Dev nD) (t : Fin cfg0.N) (y : S256x128.Idx) :
    (iblk m c 5 t : S256x128.Idx → EReal) y = (V m c main_v9 : S256x128.Idx → EReal) y := by
  obtain ⟨e0, e1⟩ := idx5 t
  show (V m c main_v9 : S256x128.Idx → EReal) (((cfg0.win 5).blk t).view.emb y) = _
  refine congrArg (V m c main_v9 : S256x128.Idx → EReal) (funext fun a => Fin.ext ?_)
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega

/-- Window 6's block is its whole array at every point: the second bias as a row. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem block6 (c : Dev nD) (t : Fin cfg0.N) (y : S1x128.Idx) :
    (iblk m c 6 t : S1x128.Idx → EReal) y = (V m c main_v11 : S1x128.Idx → EReal) y := by
  obtain ⟨e0, e1⟩ := idx6 t
  show (V m c main_v11 : S1x128.Idx → EReal) (((cfg0.win 6).blk t).view.emb y) = _
  refine congrArg (V m c main_v11 : S1x128.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The output window moves down the rows with the grid as well. -/
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

end Cert.KernelIdeal.Blocks

end
-- ==== Proof.KernelValue.lean ====
/-
  The kernel's result array after the run is the perceptron's output of the argument arrays and of the aggregate
  as the region finds it.

  Point `t` of the grid loads rows `5000 t … 5000 t + 4999` of the node features and of the aggregate and the whole
  of the weights and biases, and writes back one [5000, 128] block. Entry `(p, q)` of that block is the stored
  value at `(p, q)`, which is the perceptron's output for node `5000 t + p`, unit `q`: exactly the entry of the
  output array that the block's `(p, q)` lands on. So what every point writes back is its block of ONE array. Row
  `r` of the array lies in the block of point `r / 5000`, so the ten blocks cover the array, and the array ends
  holding that function everywhere.
-/
import proofs.«142789_j14499809591359_2_alg».proof.Proof.Gen.KernelIdeal.Value
import proofs.«142789_j14499809591359_2_alg».proof.Proof.Payload
import proofs.«142789_j14499809591359_2_alg».proof.Proof.Staged
import proofs.«142789_j14499809591359_2_alg».proof.Proof.Blocks

noncomputable section

namespace Cert.KernelIdeal.Hand

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array on core `c`: the perceptron's output of the arguments and of the aggregate the host computed. -/
def result (c : Dev nD) : S50000x128.Idx → EReal :=
  Cert.Mlp.out (m ((c : Thread nD τ).loc main_arg0)) (V m c main_v4) (m ((c : Thread nD τ).loc main_arg3))
    (m ((c : Thread nD τ).loc main_arg4)) (m ((c : Thread nD τ).loc main_arg5)) (m ((c : Thread nD τ).loc main_arg6))

/-- What point `t` writes back is block `t` of the result array. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S5000x128) hz, View.ld_unit_zero (S := S128x256) hz, View.ld_unit_zero (S := S1x256) hz,
    View.ld_unit_zero (S := S256x128) hz, View.ld_unit_zero (S := S1x128) hz]
  funext y
  obtain ⟨p, q, rfl⟩ : ∃ (p : Fin 5000) (q : Fin 128), y = ix2 p q := ⟨y 0, y 1, eq_ix2 y⟩
  have hN : cfg0.N = 10 := N_0
  have ht : t.val < 10 := by have := t.isLt; omega
  obtain ⟨e0, e1⟩ := Blocks.idx7 t
  obtain ⟨r, hr⟩ : ∃ r : Fin 50000, r.val = 5000 * t.val + p.val :=
    ⟨⟨5000 * t.val + p.val, by have := p.isLt; omega⟩, rfl⟩
  have hemb : ((cfg0.win 7).blk t).view.emb (ix2 p q) = ix2 r q := funext fun a => Fin.ext (by
    match a with
    | ⟨0, _⟩ => show win0_7.index t (0 : Fin 2) * 5000 + 1 * p.val = r.val; rw [e0, hr]; omega
    | ⟨1, _⟩ => show win0_7.index t (1 : Fin 2) * 128 + 1 * q.val = q.val; rw [e1]; omega)
  have hV0 : (V m c main_arg0 : S50000x128.Idx → EReal) = m ((c : Thread nD τ).loc main_arg0) := V_main_arg0 m c
  show k0_pay1 (F := Ideal) (iblk m c 0 t) (iblk m c 1 t) (iblk m c 2 t) (iblk m c 3 t) (iblk m c 4 t) (iblk m c 5 t)
      (iblk m c 6 t) (ix2 p q) = result m c (((cfg0.win 7).blk t).view.emb (ix2 p q))
  rw [hemb]
  show _ = Cert.Mlp.outAt (m ((c : Thread nD τ).loc main_arg0)) (V m c main_v4) (m ((c : Thread nD τ).loc main_arg3))
    (m ((c : Thread nD τ).loc main_arg4)) (m ((c : Thread nD τ).loc main_arg5)) (m ((c : Thread nD τ).loc main_arg6)) r q
  exact Body.block_value (iblk m c 0 t) (iblk m c 1 t) (iblk m c 2 t) (iblk m c 3 t) (iblk m c 4 t) (iblk m c 5 t) (iblk m c 6 t)
    (m ((c : Thread nD τ).loc main_arg0)) (V m c main_v4) (m ((c : Thread nD τ).loc main_arg3))
    (m ((c : Thread nD τ).loc main_arg4)) (m ((c : Thread nD τ).loc main_arg5)) (m ((c : Thread nD τ).loc main_arg6)) p q r
    (fun k => (Blocks.block0 m c t p k r hr).trans (congrFun hV0 (ix2 r k)))
    (fun k => Blocks.block1 m c t p k r hr)
    (fun k j => (Blocks.block2 m c t (ix2 k j)).trans (Staged.w1_top m c k j))
    (fun k j => (Blocks.block3 m c t (ix2 k j)).trans (Staged.w1_bottom m c k j))
    (fun j => (Blocks.block4 m c t (ix2 (0 : Fin 1) j)).trans (Staged.b1_row m c j))
    (fun j c' => (Blocks.block5 m c t (ix2 j c')).trans (Staged.w2 m c (ix2 j c')))
    (fun c' => (Blocks.block6 m c t (ix2 (0 : Fin 1) c')).trans (Staged.b2_row m c c'))

/-- An entry of the array is in point `t`'s block iff, on each axis, its coordinate is within the block's range. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v12).slice (win0_7.rect t)).set ↔ _
  rw [View.set_slice_whole, Rect.mem_set_unit]
  exact Iff.rfl

/-- Every entry of the array is in some point's block: row `r` in that of point `r / 5000`. -/
theorem cover (i : S50000x128.Idx) :
    ∃ t : Fin cfg0.N, (cfg0.win 7).flush t = true ∧ i ∈ ((cfg0.win 7).blk t).view.set := by
  have hN : cfg0.N = 10 := N_0
  have hi0 : (i 0).val < 50000 := (i 0).isLt
  have hi1 : (i 1).val < 128 := (i 1).isLt
  obtain ⟨t, htv⟩ : ∃ t : Fin cfg0.N, t.val = (i 0).val / 5000 := ⟨⟨(i 0).val / 5000, by rw [hN]; omega⟩, rfl⟩
  obtain ⟨e0, e1⟩ := Blocks.idx7 t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0, htv]; omega
  | ⟨1, _⟩ =>
    show win0_7.index t (1 : Fin 2) * 128 ≤ (i 1).val ∧ (i 1).val < win0_7.index t (1 : Fin 2) * 128 + 128
    rw [e1]; omega

/-- The result array after the run. -/
theorem final (c : Dev nD) : (dats m 0 c).arrAt 7 cfg0.N = result m c :=
  (dats m 0 c).arrAt_eq_of_cover 7 (result m c) (fun t _ => flushed_eq m c t) cover

/-- The run, read: the result array at the perceptron's output, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.KernelIdeal.Value.run_blocks m ρ)

end Cert.KernelIdeal.Hand

end
-- ==== Proof.RefValue.lean ====
/-
  The reference's result is the perceptron's output. Its last stage is read back one operation at a time: the
  final addition, the second product as a sum over 256 hidden units, the hidden layer as the first product (a sum
  over the 256 entries of a joined row) plus the bias, the biases broadcast down the rows. The joined row is the
  concatenation, along the feature axis, of the node features (entries 0 to 127) and the aggregate (entries 128 to
  255); splitting the sum over the joined row at 128 gives the split form of the specification. The aggregate is
  never opened: it is the stage the scatter-add writes, carried as one array.
-/
import proofs.«142789_j14499809591359_2_alg».proof.Proof.Gen.ReferenceIdeal.Read
import proofs.«142789_j14499809591359_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x640000, .i32⟩ : BufTy).Contents (Elt Ideal))
  (x2 : (⟨S640000x128, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal))

/-- The first 128 entries of a joined row are the node features. -/
theorem joined_lo (r : Fin 50000) (k : Fin 128) :
    val_main_v5 (F := Ideal) x0 x1 x2 (ix2 r (Cert.Mlp.lo k)) = x0 (ix2 r k) := by
  unfold val_main_v5
  exact concatenate_pair_apply_left (1 : Fin 2) x0 (val_main_v4 (F := Ideal) x1 x2)
    concatenates_S50000x128_S50000x128_S50000x256_d1 (ix2 r (Cert.Mlp.lo k)) rfl (ix2 r k)
    (fun b => by match b with | ⟨0, _⟩ => rfl | ⟨1, _⟩ => rfl)

/-- The last 128 entries of a joined row are the aggregate. -/
theorem joined_hi (r : Fin 50000) (k : Fin 128) :
    val_main_v5 (F := Ideal) x0 x1 x2 (ix2 r (Cert.Mlp.hi k)) = val_main_v4 (F := Ideal) x1 x2 (ix2 r k) := by
  unfold val_main_v5
  exact concatenate_pair_apply_right (1 : Fin 2) x0 (val_main_v4 (F := Ideal) x1 x2)
    concatenates_S50000x128_S50000x128_S50000x256_d1 (ix2 r (Cert.Mlp.hi k)) rfl rfl (ix2 r k)
    (fun b hb => by match b with | ⟨0, _⟩ => rfl | ⟨1, _⟩ => exact absurd rfl hb)
    (by show k.val + 128 = 128 + k.val; omega)

/-- The hidden layer's stage at `(r, j)` is the specification's hidden activation. -/
theorem hidden_eq (r : Fin 50000) (j : Fin 256) :
    val_main_v9 (F := Ideal) x0 x1 x2 x3 x4 (ix2 r j)
      = Cert.Mlp.hidden x0 (val_main_v4 (F := Ideal) x1 x2) x3 x4 r j := by
  have f1 : ∀ k : Fin 256, lidx_main_v6 (ix2 r j) k = ix2 r k := fun k =>
    funext fun a => Fin.ext (by match a with | ⟨0, _⟩ => rfl | ⟨1, _⟩ => rfl)
  have f2 : ∀ k : Fin 256, ridx_main_v6 (ix2 r j) k = ix2 k j := fun k =>
    funext fun a => Fin.ext (by match a with | ⟨0, _⟩ => rfl | ⟨1, _⟩ => rfl)
  have f3 : idx_main_v7 (idx_main_v8 (ix2 r j)) = ix1 j :=
    funext fun a => Fin.ext (by match a with | ⟨0, _⟩ => rfl)
  rw [val_main_v9_apply, val_main_v6_apply, val_main_v8_apply, val_main_v7_apply, Ideal.addf_def]
  simp only [f1, f2, f3]
  exact Cert.Mlp.hidden_of_joined x0 (val_main_v4 (F := Ideal) x1 x2) x3 x4 (val_main_v5 (F := Ideal) x0 x1 x2) r
    (joined_lo x0 x1 x2 r) (joined_hi x0 x1 x2 r) j

/-- The reference's last stage is the specification's output array of the arguments and the aggregate. -/
theorem result_eq :
    val_main_v13 (F := Ideal) x0 x1 x2 x3 x4 x5 x6
      = Cert.Mlp.out x0 (val_main_v4 (F := Ideal) x1 x2) x3 x4 x5 x6 := by
  funext i
  obtain ⟨r, c, rfl⟩ : ∃ (r : Fin 50000) (c : Fin 128), i = ix2 r c := ⟨i 0, i 1, eq_ix2 i⟩
  have e1 : ∀ k : Fin 256, lidx_main_v10 (ix2 r c) k = ix2 r k := fun k =>
    funext fun a => Fin.ext (by match a with | ⟨0, _⟩ => rfl | ⟨1, _⟩ => rfl)
  have e2 : ∀ k : Fin 256, ridx_main_v10 (ix2 r c) k = ix2 k c := fun k =>
    funext fun a => Fin.ext (by match a with | ⟨0, _⟩ => rfl | ⟨1, _⟩ => rfl)
  have e3 : idx_main_v11 (idx_main_v12 (ix2 r c)) = ix1 c :=
    funext fun a => Fin.ext (by match a with | ⟨0, _⟩ => rfl)
  rw [Cert.Mlp.out_apply]
  unfold Cert.Mlp.outAt
  rw [val_main_v13_apply, val_main_v10_apply, val_main_v12_apply, val_main_v11_apply, Ideal.addf_def]
  simp only [e1, e2, e3, hidden_eq]

end Cert.ReferenceIdeal.RefValue

end
-- ==== Proof.Agg.lean ====
/-
  Both programs compute the aggregate of the edge features onto their source nodes by the same operations on the
  same arguments: row 0 of the edge index, laid out as a column of scatter indices, adds the rows of the edge
  features into an array of zeros. So the array the kernel's region finds in its aggregate window is, of arguments
  that agree, the stage the reference's scatter-add writes: one array, which neither side's value needs opened.
-/
import proofs.«142789_j14499809591359_2_alg».proof.Proof.Gen.KernelIdeal.Frame
import proofs.«142789_j14499809591359_2_alg».proof.Proof.Gen.ReferenceIdeal.Read
import Idealize.ShloMosaic.Lib.StableHlo.Run

noncomputable section

namespace Cert.KernelIdeal.Agg

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- The aggregate the region finds is the reference's scatter-add stage of the kernel's own arguments. -/
theorem found_eq (c : Dev Cert.KernelIdeal.nD) :
    (Cert.KernelIdeal.Gen.V m c Cert.KernelIdeal.main_v4 : Cert.KernelIdeal.S50000x128.Idx → EReal)
      = Cert.ReferenceIdeal.Read.val_main_v4 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]
  after_results <;> rfl

end Cert.KernelIdeal.Agg

end
-- ==== Proof.lean ====
/-
  A fused two-layer perceptron over graph nodes against its plain reference, equal over the extended reals.

  Both programs first aggregate the edge features onto their source nodes (the same scatter-add of the same
  arguments into zeros). The reference joins each node's 128 features with its 128 aggregated features into one row
  of 256, multiplies by W1 [256, 256], adds b1, multiplies by W2 [256, 128] and adds b2. The kernel never forms the
  joined row: on each of ten blocks of 5000 nodes it multiplies the node features by the top 128 rows of W1 and the
  aggregate by the bottom 128 rows, adds the two products and b1, multiplies by W2 and adds b2.

  The two agree entry by entry: a sum over the 256 entries of the joined row is the sum over its first 128 entries
  plus the sum over its last 128 — associativity and commutativity of addition only, which hold for every extended
  real, so finiteness of the inputs is never used. Changes of float format are the identity over the extended reals,
  and a product accumulated into zeros is the plain sum of products.

  The kernel's side: what each grid point writes back is its block of one whole array (Proof/KernelValue.lean, over the
  stored value read at an entry, Proof/Payload.lean; the blocks, Proof/Blocks.lean; the arrays the host prepared,
  Proof/Staged.lean). The reference's side: its last stage read back operation by operation is the same array
  (Proof/RefValue.lean). The aggregate is one shared array on both sides (Proof/Agg.lean). The function itself is
  Proof/Spec.lean. The kernel has no rewrite to account for, so the idealization claim is trivial.
-/
import proofs.«142789_j14499809591359_2_alg».proof.Defs
import proofs.«142789_j14499809591359_2_alg».proof.Proof.Gen.Kernel
import proofs.«142789_j14499809591359_2_alg».proof.Proof.Gen.Kernel.Frame
import proofs.«142789_j14499809591359_2_alg».proof.Proof.Gen.KernelIdeal
import proofs.«142789_j14499809591359_2_alg».proof.Proof.Gen.KernelIdeal.Frame
import proofs.«142789_j14499809591359_2_alg».proof.Proof.Gen.KernelIdeal.Value
import proofs.«142789_j14499809591359_2_alg».proof.Proof.Gen.ReferenceIdeal
import proofs.«142789_j14499809591359_2_alg».proof.Proof.Gen.ReferenceIdeal.Run
import proofs.«142789_j14499809591359_2_alg».proof.Proof.Gen.ReferenceIdeal.Read
import proofs.«142789_j14499809591359_2_alg».proof.Proof.Gen.Pre_finite_inputs
import proofs.«142789_j14499809591359_2_alg».proof.Proof.KernelValue
import proofs.«142789_j14499809591359_2_alg».proof.Proof.RefValue
import proofs.«142789_j14499809591359_2_alg».proof.Proof.Agg

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree, the kernel's result array and the reference's are one array: the perceptron's output
    of the arguments and of their common aggregate. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefValue.result_eq, a0, a1, a2, a3, a4, a5, a6]
  show _ = Cert.KernelIdeal.Hand.result m c
  unfold Cert.KernelIdeal.Hand.result
  rw [Cert.KernelIdeal.Agg.found_eq m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
